-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256x128 .f32) (main_arg10 : FVec F S128 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x256 .f32) (main_arg1 : FVec F S10000x10000 .f32) (main_arg2 : FVec F S256x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S2000x256 : Shape := ⟨2, ![2000, 256]⟩
abbrev S400x10000 : Shape := ⟨2, ![400, 10000]⟩
abbrev S400x256 : Shape := ⟨2, ![400, 256]⟩
abbrev S10000x128 : Shape := ⟨2, ![10000, 128]⟩
abbrev S400x128 : Shape := ⟨2, ![400, 128]⟩
abbrev S1x128 : Shape := ⟨2, ![1, 128]⟩

abbrev nBuf : Space → Nat
  | .hbm => 19
  | .vmem => 28
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x256, .f32⟩
  | .hbm, ⟨12, _⟩ => ⟨S10000x256, .bf16⟩
  | .hbm, ⟨13, _⟩ => ⟨S1x256, .f32⟩
  | .hbm, ⟨14, _⟩ => ⟨S10000x256, .bf16⟩
  | .hbm, ⟨15, _⟩ => ⟨S1x256, .f32⟩
  | .hbm, ⟨16, _⟩ => ⟨S10000x128, .bf16⟩
  | .hbm, ⟨17, _⟩ => ⟨S1x128, .f32⟩
  | .hbm, ⟨18, _⟩ => ⟨S10000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S2000x256, .bf16⟩
  | .local _ .vmem, ⟨7, _⟩ => ⟨S2000x256, .bf16⟩
  | .local _ .vmem, ⟨8, _⟩ => ⟨S400x10000, .f32⟩
  | .local _ .vmem, ⟨9, _⟩ => ⟨S400x10000, .f32⟩
  | .local _ .vmem, ⟨10, _⟩ => ⟨S10000x256, .bf16⟩
  | .local _ .vmem, ⟨11, _⟩ => ⟨S1x256, .f32⟩
  | .local _ .vmem, ⟨12, _⟩ => ⟨S256x256, .f32⟩
  | .local _ .vmem, ⟨13, _⟩ => ⟨S400x256, .bf16⟩
  | .local _ .vmem, ⟨14, _⟩ => ⟨S400x256, .bf16⟩
  | .local _ .vmem, ⟨15, _⟩ => ⟨S400x10000, .f32⟩
  | .local _ .vmem, ⟨16, _⟩ => ⟨S400x10000, .f32⟩
  | .local _ .vmem, ⟨17, _⟩ => ⟨S10000x256, .bf16⟩
  | .local _ .vmem, ⟨18, _⟩ => ⟨S1x256, .f32⟩
  | .local _ .vmem, ⟨19, _⟩ => ⟨S256x128, .f32⟩
  | .local _ .vmem, ⟨20, _⟩ => ⟨S400x128, .bf16⟩
  | .local _ .vmem, ⟨21, _⟩ => ⟨S400x128, .bf16⟩
  | .local _ .vmem, ⟨22, _⟩ => ⟨S400x10000, .f32⟩
  | .local _ .vmem, ⟨23, _⟩ => ⟨S400x10000, .f32⟩
  | .local _ .vmem, ⟨24, _⟩ => ⟨S10000x128, .bf16⟩
  | .local _ .vmem, ⟨25, _⟩ => ⟨S1x128, .f32⟩
  | .local _ .vmem, ⟨26, _⟩ => ⟨S400x128, .f32⟩
  | .local _ .vmem, ⟨27, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S1x256_S400x256 : S1x256.Broadcasts S400x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S10000x256.size a
  hwx0_5 : ∀ i : grid0.Coords, EltTy.bits .bf16 = 32 ∨ (Rect.block (s := S10000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .bf16 = 32 ∨ (Rect.block (s := S10000x256) S400x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .bf16 = 32 ∨ (Rect.block (s := S10000x128) S400x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S400x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S_ : Shape := ⟨0, ![]⟩
abbrev S10000x128 : Shape := ⟨2, ![10000, 128]⟩
abbrev S1x128 : Shape := ⟨2, ![1, 128]⟩

abbrev nBuf : Space → Nat
  | .hbm => 59
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S256x256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | .hbm, ⟨16, _⟩ => ⟨S_, .f32⟩
  | .hbm, ⟨17, _⟩ => ⟨S10000x256, .f32⟩
  | .hbm, ⟨18, _⟩ => ⟨S10000x256, .i1⟩
  | .hbm, ⟨19, _⟩ => ⟨S_, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S10000x256, .f32⟩
  | .hbm, ⟨24, _⟩ => ⟨S10000x256, .f32⟩
  | .hbm, ⟨25, _⟩ => ⟨S1x256, .f32⟩
  | .hbm, ⟨26, _⟩ => ⟨S10000x256, .f32⟩
  | .hbm, ⟨27, _⟩ => ⟨S10000x256, .f32⟩
  | .hbm, ⟨28, _⟩ => ⟨S_, .f32⟩
  | .hbm, ⟨29, _⟩ => ⟨S10000x256, .f32⟩
  | .hbm, ⟨30, _⟩ => ⟨S10000x256, .i1⟩
  | .hbm, ⟨31, _⟩ => ⟨S_, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S1x256, .f32⟩
  | .hbm, ⟨38, _⟩ => ⟨S10000x256, .f32⟩
  | .hbm, ⟨39, _⟩ => ⟨S10000x256, .f32⟩
  | .hbm, ⟨40, _⟩ => ⟨S_, .f32⟩
  | .hbm, ⟨41, _⟩ => ⟨S10000x256, .f32⟩
  | .hbm, ⟨42, _⟩ => ⟨S10000x256, .i1⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S10000x256, .f32⟩
  | .hbm, ⟨47, _⟩ => ⟨S10000x128, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x128, .f32⟩
  | .hbm, ⟨54, _⟩ => ⟨S10000x128, .i1⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelRun.lean ====
/-
  The idealized kernel's run with its result named.

  The program is four kernel launches among short stretches of host reshapes. Every weakly fair execution
  terminates without a fault, and the final memory holds, in every buffer that outlives a launch, the
  contents obtained by folding the stretches and the launches' write-backs over the initial memory. Read at
  the result buffer this names the network's output; read at an argument buffer it gives back the argument.
-/
import proofs.«118676_g22600117912055_cont_8to1_816_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    last boundary's contents and every argument ends as it was launched. -/
theorem run_main : θ_run defs (onTc (τ := τ) (main (F := F))) ⟨m, fun _ => 0, ρ⟩ (fun r => ∀ c : Dev nD,
      r.2.mem ((c.tc : Thread nD τ).loc main_v7) = W8 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v7 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Run

end
-- ==== Proof.Spec.lean ====
/-
  A four-layer graph network as plain matrix algebra over the extended reals.

  Every array is a function from a two-coordinate index to an extended real. The product of two matrices
  is, at row p and column q, the sum over k of A (p, k) · B (k, q); one layer takes the product of an
  adjacency-like matrix with a feature matrix, adds a bias row to every row, and applies the activation
  z ↦ z where z ≥ 0, z / 4 elsewhere. A row of a product only depends on the same row of its left factor,
  and so does a row of a layer: that is what lets a kernel compute the result one block of rows at a time.
-/
import Idealize.ShloMosaic.PureOps.Ideal.Laws
import Idealize.ShloMosaic.Lib.ValueIdx

noncomputable section

namespace Cert.Gcn

open Idealize.ShloMosaic Idealize.ShloMosaic.ValueIdx

/-- An a × b matrix of extended reals. -/
abbrev Mat (a b : Nat) : Type := (⟨2, ![a, b]⟩ : Shape).Idx → EReal
/-- A vector of b extended reals. -/
abbrev Row (b : Nat) : Type := (⟨1, ![b]⟩ : Shape).Idx → EReal

/-- The activation: z where z ≥ 0, a quarter of z elsewhere (the words are the floats 0 and 0.25). -/
def act (z : EReal) : EReal :=
  Scalar.select (FloatOps.cmpf (F := Ideal) (φ := .f32) .oge z (Ideal.ofBits .f32 0x00000000#32)) z
    (Ideal.ofBits .f32 0x3E800000#32 * z)

/-- The matrix product: entry (p, q) is the sum over k of A (p, k) · B (k, q). -/
def mm {a K b : Nat} (A : Mat a K) (B : Mat K b) : Mat a b :=
  fun j => ∑ k : Fin K, A (ix2 (j 0) k) * B (ix2 k (j 1))

/-- The entrywise product of two matrices. -/
def had {a b : Nat} (A B : Mat a b) : Mat a b := fun j => A j * B j

/-- One layer: the activation of A · S plus the bias row (a 1 × b matrix) added to every row. -/
def dense {a K b : Nat} (A : Mat a K) (S : Mat K b) (bias : Mat 1 b) : Mat a b :=
  fun j => act (mm A S j + bias (ix2 0 (j 1)))

/-- A vector laid out as the single row of a 1 × b matrix. -/
def asRow {b : Nat} (v : Row b) : Mat 1 b := fun j => v (ix1 (j 1))

/-- A layer's output times the next layer's weights: what is handed from one layer to the next. -/
def featOf {a K b e : Nat} (A : Mat a K) (S : Mat K b) (bias : Mat 1 b) (W : Mat b e) : Mat a e :=
  mm (dense A S bias) W

section Net
variable {n d h1 h2 h3 : Nat} (x : Mat n d) (adj : Mat n n) (g w0 : Mat d d) (b0 : Row d) (w1 : Mat d h1)
  (b1 : Row h1) (w2 : Mat h1 h2) (b2 : Row h2) (w3 : Mat h2 h3) (b3 : Row h3)

/-- The first layer multiplies the features by the entrywise product of two weight matrices; its output
    times the second layer's weights. -/
def feat1 : Mat n h1 := featOf x (had g w0) (asRow b0) w1
/-- The second layer multiplies the adjacency matrix by that; its output times the third layer's weights. -/
def feat2 : Mat n h2 := featOf adj (feat1 x g w0 b0 w1) (asRow b1) w2
/-- The third layer likewise; its output times the last layer's weights. -/
def feat3 : Mat n h3 := featOf adj (feat2 x adj g w0 b0 w1 b1 w2) (asRow b2) w3
/-- The whole network: the last layer, with nothing after its activation. -/
def net : Mat n h3 := dense adj (feat3 x adj g w0 b0 w1 b1 w2 b2 w3) (asRow b3)

end Net

/-- Row r of a product depends only on row r of the left factor. -/
theorem mm_rows {a a' K b : Nat} (A : Mat a K) (A' : Mat a' K) (B : Mat K b) (r : Fin a) (r' : Fin a')
    (h : ∀ k, A (ix2 r k) = A' (ix2 r' k)) (q : Fin b) : mm A B (ix2 r q) = mm A' B (ix2 r' q) := by
  show (∑ k : Fin K, A (ix2 r k) * B (ix2 k q)) = ∑ k : Fin K, A' (ix2 r' k) * B (ix2 k q)
  exact Finset.sum_congr rfl fun k _ => by rw [h k]

/-- Row r of a layer depends only on row r of its left factor. -/
theorem dense_rows {a a' K b : Nat} (A : Mat a K) (A' : Mat a' K) (S : Mat K b) (bias : Mat 1 b) (r : Fin a)
    (r' : Fin a') (h : ∀ k, A (ix2 r k) = A' (ix2 r' k)) (q : Fin b) :
    dense A S bias (ix2 r q) = dense A' S bias (ix2 r' q) := by
  show act (mm A S (ix2 r q) + bias (ix2 0 q)) = act (mm A' S (ix2 r' q) + bias (ix2 0 q))
  rw [mm_rows A A' S r r' h q]

/-- Row r of a layer's output times a weight matrix depends only on row r of the layer's left factor. -/
theorem featOf_rows {a a' K b e : Nat} (A : Mat a K) (A' : Mat a' K) (S : Mat K b) (bias : Mat 1 b)
    (W : Mat b e) (r : Fin a) (r' : Fin a') (h : ∀ k, A (ix2 r k) = A' (ix2 r' k)) (q : Fin e) :
    featOf A S bias W (ix2 r q) = featOf A' S bias W (ix2 r' q) :=
  mm_rows _ _ W r r' (fun k => dense_rows A A' S bias r r' h k) q

end Cert.Gcn

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.Layer.lean ====
/-
  The vector operations of one layer, read as the matrix algebra of the specification.

  A rank-2 contraction whose dimension numbers pair the left operand's columns with the right operand's
  rows is the matrix product, on the kernel (into a zero accumulator) and on the host alike. The
  comparison with zero, the product with a quarter and the choice between the two, applied entry by
  entry, are the activation. So a product plus a bias row repeated over the rows, put through those three
  operations, is one layer.
-/
import proofs.«118676_g22600117912055_cont_8to1_816_2_alg».proof.Proof.Spec
import proofs.«118676_g22600117912055_cont_8to1_816_2_alg».proof.Proof.LibMatmul
import proofs.«118676_g22600117912055_cont_8to1_816_2_alg».proof.Proof.LibDotGeneral
import Idealize.ShloMosaic.Lib.ValueLayout
import Idealize.ShloMosaic.Lib.Pipeline.Value

noncomputable section

namespace Cert.Gcn

open Idealize.ShloMosaic Idealize.ShloMosaic.ValueIdx

/-- What a rank-2 contraction record says when it is the plain row-by-column product: one contracted
    axis, of the inner extent; the left operand read at (row, k), the right one at (k, column). -/
structure RowByCol {a K b : Nat} (d : DotDims ⟨2, ![a, K]⟩ ⟨2, ![K, b]⟩ ⟨2, ![a, b]⟩) : Prop where
  hr : d.contr.rank = 1
  hs : d.contr.size ⟨0, by omega⟩ = K
  hl0 : ∀ j q, (d.lhsIdx j q 0).val = (j 0).val
  hl1 : ∀ j q, (d.lhsIdx j q 1).val = (q ⟨0, by omega⟩).val
  hr0 : ∀ j q, (d.rhsIdx j q 0).val = (q ⟨0, by omega⟩).val
  hr1 : ∀ j q, (d.rhsIdx j q 1).val = (j 1).val

variable {a K b : Nat} {φ₁ φ₂ : FTy} {d : DotDims ⟨2, ![a, K]⟩ ⟨2, ![K, b]⟩ ⟨2, ![a, b]⟩}

/-- A kernel's product into a zero accumulator is the matrix product. -/
theorem matmul_eq_mm (h : RowByCol d) (prec : Option ContractPrecision) (A : FVec Ideal ⟨2, ![a, K]⟩ φ₁)
    (S : FVec Ideal ⟨2, ![K, b]⟩ φ₂) :
    FloatOps.matmul d prec A S (constant ⟨2, ![a, b]⟩ .f32 0x00000000#32) = mm A S :=
  funext fun j => LibMatmul.matmul_zero_ix2 d prec h.hr h.hs h.hl0 h.hl1 h.hr0 h.hr1 A S j

/-- The host's product is the matrix product, whatever its schedule. -/
theorem dotGeneral_eq_mm (h : RowByCol d) (prec : Option ContractPrecision) (sched : HostSchedule)
    (A : FVec Ideal ⟨2, ![a, K]⟩ φ₁) (S : FVec Ideal ⟨2, ![K, b]⟩ φ₂) :
    FloatOps.dotGeneral d prec sched A S = mm A S :=
  funext fun j => LibDotGeneral.dotGeneral_ix2 d prec sched h.hr h.hs h.hl0 h.hl1 h.hr0 h.hr1 A S j

/-- The activation as the vector operations spell it: compare with zero, multiply by a quarter, choose. -/
def actVec {s : Shape} (Z : FVec Ideal s .f32) : FVec Ideal s .f32 :=
  select (cmpf .oge Z (broadcast s (Scalar.ofBits (F := Ideal) .f32 0x00000000#32))) Z
    (mulf (broadcast s (Scalar.ofBits (F := Ideal) .f32 0x3E800000#32)) Z)

theorem actVec_apply {s : Shape} (Z : FVec Ideal s .f32) (i : s.Idx) : actVec Z i = act (Z i) := rfl

/-- A product plus a bias row repeated over the rows, activated, is one layer. -/
theorem actVec_add_bias (P : Mat a b) (bias : Mat 1 b) (hb : (⟨2, ![1, b]⟩ : Shape).Broadcasts ⟨2, ![a, b]⟩)
    (A : Mat a K) (S : Mat K b) (hP : P = mm A S) :
    actVec (s := ⟨2, ![a, b]⟩) (addf (F := Ideal) (φ := .f32) P (broadcastTo ⟨2, ![a, b]⟩ bias hb)) = dense A S bias := by
  funext j
  obtain ⟨p, q, rfl⟩ : ∃ (p : Fin a) (q : Fin b), j = ix2 p q := ⟨j 0, j 1, eq_ix2 j⟩
  show act (P (ix2 p q) + broadcastTo ⟨2, ![a, b]⟩ bias hb (ix2 p q)) = act (mm A S (ix2 p q) + bias (ix2 0 q))
  rw [broadcastTo_1b_ab_apply bias hb p q, hP]

end Cert.Gcn

end
-- ==== Proof.KernelBody.lean ====
/-
  What each of the four kernel bodies stores, as matrix algebra of the blocks it loads.

  The first body multiplies its block of feature rows by the entrywise product of two weight matrices,
  adds the bias row, activates, and multiplies by the next layer's weights. The two middle bodies do the
  same with a block of adjacency rows against the whole previous feature matrix. The last body stops
  after the activation. Rounding to a shorter float format is the identity on exact values, and a
  reshape to the same shape changes nothing.
-/
import proofs.«118676_g22600117912055_cont_8to1_816_2_alg».proof.Proof.Gen.KernelIdeal.Skeleton
import proofs.«118676_g22600117912055_cont_8to1_816_2_alg».proof.Proof.Layer

noncomputable section

namespace Cert.KernelIdeal.Body

open Idealize.ShloMosaic Idealize.ShloMosaic.ValueIdx Cert.KernelIdeal Cert.KernelIdeal.Gen Cert.Gcn

/-- The head body's contraction [2000, 256] × [256, 256] is the row-by-column product. -/
theorem rbc_2000_256_256 : RowByCol dot_S2000x256_S256x256_S2000x256_1_0_0_1_n_n where
  hr := rfl
  hs := rfl
  hl0 := fun j q => by
    unfold DotDims.lhsIdx
    rw [dif_neg (show ¬(0 : Fin S2000x256.rank) ∈ dot_S2000x256_S256x256_S2000x256_1_0_0_1_n_n.lhsBatch by decide),
      dif_pos (show (0 : Fin S2000x256.rank) ∈ dot_S2000x256_S256x256_S2000x256_1_0_0_1_n_n.lhsNonContracting by decide)]
    rfl
  hl1 := fun j q => dot_S2000x256_S256x256_S2000x256_1_0_0_1_n_n.lhsIdx_val_of_single rfl j q
  hr0 := fun j q => dot_S2000x256_S256x256_S2000x256_1_0_0_1_n_n.rhsIdx_val_of_single rfl j q
  hr1 := fun j q => by
    unfold DotDims.rhsIdx
    rw [dif_neg (show ¬(1 : Fin S256x256.rank) ∈ dot_S2000x256_S256x256_S2000x256_1_0_0_1_n_n.rhsBatch by decide),
      dif_pos (show (1 : Fin S256x256.rank) ∈ dot_S2000x256_S256x256_S2000x256_1_0_0_1_n_n.rhsNonContracting by decide)]
    rfl

/-- The head body stores (activation of x-block · (g ∘ w0) + bias row) · w1. -/
theorem head_eq (v0 v1 : FVec Ideal S256x256 .f32) (v3 : FVec Ideal S2000x256 .f32) (v5 : FVec Ideal S1x256 .f32)
    (v14 : FVec Ideal S256x256 .f32) :
    k0_pay1 (F := Ideal) v0 v1 v3 v5 v14 = featOf v3 (had v0 v1) v5 v14 := by
  unfold k0_pay1
  show FloatOps.matmul dot_S2000x256_S256x256_S2000x256_1_0_0_1_n_n none
      (actVec (s := S2000x256) (addf (F := Ideal) (φ := .f32)
        (FloatOps.matmul dot_S2000x256_S256x256_S2000x256_1_0_0_1_n_n none v3 (had v0 v1) (constant S2000x256 .f32 0x00000000#32))
        (broadcastTo S2000x256 (shapeCast S1x256 v5 shapeCasts_S1x256_S1x256) broadcasts_S1x256_S2000x256)))
      v14 (constant S2000x256 .f32 0x00000000#32) = _
  rw [shapeCast_self, actVec_add_bias _ v5 broadcasts_S1x256_S2000x256 v3 (had v0 v1) (matmul_eq_mm rbc_2000_256_256 none v3 (had v0 v1))]
  exact matmul_eq_mm rbc_2000_256_256 none _ v14

/-- A block of adjacency rows [400, 10000] against the feature matrix [10000, 256]: the row-by-column product. -/
theorem rbc_400_10000_256 : RowByCol dot_S400x10000_S10000x256_S400x256_1_0_0_1_n_n where
  hr := rfl
  hs := rfl
  hl0 := fun j q => by
    unfold DotDims.lhsIdx
    rw [dif_neg (show ¬(0 : Fin S400x10000.rank) ∈ dot_S400x10000_S10000x256_S400x256_1_0_0_1_n_n.lhsBatch by decide),
      dif_pos (show (0 : Fin S400x10000.rank) ∈ dot_S400x10000_S10000x256_S400x256_1_0_0_1_n_n.lhsNonContracting by decide)]
    rfl
  hl1 := fun j q => dot_S400x10000_S10000x256_S400x256_1_0_0_1_n_n.lhsIdx_val_of_single rfl j q
  hr0 := fun j q => dot_S400x10000_S10000x256_S400x256_1_0_0_1_n_n.rhsIdx_val_of_single rfl j q
  hr1 := fun j q => by
    unfold DotDims.rhsIdx
    rw [dif_neg (show ¬(1 : Fin S10000x256.rank) ∈ dot_S400x10000_S10000x256_S400x256_1_0_0_1_n_n.rhsBatch by decide),
      dif_pos (show (1 : Fin S10000x256.rank) ∈ dot_S400x10000_S10000x256_S400x256_1_0_0_1_n_n.rhsNonContracting by decide)]
    rfl

/-- A block of activated rows [400, 256] against weights [256, 256]: the row-by-column product. -/
theorem rbc_400_256_256 : RowByCol dot_S400x256_S256x256_S400x256_1_0_0_1_n_n where
  hr := rfl
  hs := rfl
  hl0 := fun j q => by
    unfold DotDims.lhsIdx
    rw [dif_neg (show ¬(0 : Fin S400x256.rank) ∈ dot_S400x256_S256x256_S400x256_1_0_0_1_n_n.lhsBatch by decide),
      dif_pos (show (0 : Fin S400x256.rank) ∈ dot_S400x256_S256x256_S400x256_1_0_0_1_n_n.lhsNonContracting by decide)]
    rfl
  hl1 := fun j q => dot_S400x256_S256x256_S400x256_1_0_0_1_n_n.lhsIdx_val_of_single rfl j q
  hr0 := fun j q => dot_S400x256_S256x256_S400x256_1_0_0_1_n_n.rhsIdx_val_of_single rfl j q
  hr1 := fun j q => by
    unfold DotDims.rhsIdx
    rw [dif_neg (show ¬(1 : Fin S256x256.rank) ∈ dot_S400x256_S256x256_S400x256_1_0_0_1_n_n.rhsBatch by decide),
      dif_pos (show (1 : Fin S256x256.rank) ∈ dot_S400x256_S256x256_S400x256_1_0_0_1_n_n.rhsNonContracting by decide)]
    rfl

/-- A block of activated rows [400, 256] against weights [256, 128]: the row-by-column product. -/
theorem rbc_400_256_128 : RowByCol dot_S400x256_S256x128_S400x128_1_0_0_1_n_n where
  hr := rfl
  hs := rfl
  hl0 := fun j q => by
    unfold DotDims.lhsIdx
    rw [dif_neg (show ¬(0 : Fin S400x256.rank) ∈ dot_S400x256_S256x128_S400x128_1_0_0_1_n_n.lhsBatch by decide),
      dif_pos (show (0 : Fin S400x256.rank) ∈ dot_S400x256_S256x128_S400x128_1_0_0_1_n_n.lhsNonContracting by decide)]
    rfl
  hl1 := fun j q => dot_S400x256_S256x128_S400x128_1_0_0_1_n_n.lhsIdx_val_of_single rfl j q
  hr0 := fun j q => dot_S400x256_S256x128_S400x128_1_0_0_1_n_n.rhsIdx_val_of_single rfl j q
  hr1 := fun j q => by
    unfold DotDims.rhsIdx
    rw [dif_neg (show ¬(1 : Fin S256x128.rank) ∈ dot_S400x256_S256x128_S400x128_1_0_0_1_n_n.rhsBatch by decide),
      dif_pos (show (1 : Fin S256x128.rank) ∈ dot_S400x256_S256x128_S400x128_1_0_0_1_n_n.rhsNonContracting by decide)]
    rfl

/-- A block of adjacency rows [400, 10000] against the feature matrix [10000, 128]: the row-by-column product. -/
theorem rbc_400_10000_128 : RowByCol dot_S400x10000_S10000x128_S400x128_1_0_0_1_n_n where
  hr := rfl
  hs := rfl
  hl0 := fun j q => by
    unfold DotDims.lhsIdx
    rw [dif_neg (show ¬(0 : Fin S400x10000.rank) ∈ dot_S400x10000_S10000x128_S400x128_1_0_0_1_n_n.lhsBatch by decide),
      dif_pos (show (0 : Fin S400x10000.rank) ∈ dot_S400x10000_S10000x128_S400x128_1_0_0_1_n_n.lhsNonContracting by decide)]
    rfl
  hl1 := fun j q => dot_S400x10000_S10000x128_S400x128_1_0_0_1_n_n.lhsIdx_val_of_single rfl j q
  hr0 := fun j q => dot_S400x10000_S10000x128_S400x128_1_0_0_1_n_n.rhsIdx_val_of_single rfl j q
  hr1 := fun j q => by
    unfold DotDims.rhsIdx
    rw [dif_neg (show ¬(1 : Fin S10000x128.rank) ∈ dot_S400x10000_S10000x128_S400x128_1_0_0_1_n_n.rhsBatch by decide),
      dif_pos (show (1 : Fin S10000x128.rank) ∈ dot_S400x10000_S10000x128_S400x128_1_0_0_1_n_n.rhsNonContracting by decide)]
    rfl

/-- The second body stores (activation of adjacency-block · features + bias row) · next weights, 256 columns wide. -/
theorem pass1_eq (v0 : FVec Ideal S400x10000 .f32) (v2 : FVec Ideal S10000x256 .bf16) (v5 : FVec Ideal S1x256 .f32)
    (v14 : FVec Ideal S256x256 .f32) :
    k1_pay1 (F := Ideal) v0 v2 v5 v14 = featOf v0 v2 v5 v14 := by
  unfold k1_pay1
  show FloatOps.matmul dot_S400x256_S256x256_S400x256_1_0_0_1_n_n none
      (actVec (s := S400x256) (addf (F := Ideal) (φ := .f32)
        (FloatOps.matmul dot_S400x10000_S10000x256_S400x256_1_0_0_1_n_n none (truncf .bf16 v0 bitsLt_bf16_f32) (shapeCast S10000x256 v2 shapeCasts_S10000x256_S10000x256)
          (constant S400x256 .f32 0x00000000#32))
        (broadcastTo S400x256 (shapeCast S1x256 v5 shapeCasts_S1x256_S1x256) broadcasts_S1x256_S400x256)))
      v14 (constant S400x256 .f32 0x00000000#32) = _
  rw [shapeCast_self, shapeCast_self, actVec_add_bias _ v5 broadcasts_S1x256_S400x256 v0 v2
    (matmul_eq_mm rbc_400_10000_256 none (truncf .bf16 v0 bitsLt_bf16_f32) v2 : _ = mm v0 v2)]
  exact matmul_eq_mm rbc_400_256_256 none _ v14

/-- The third body stores the same with the next weights 128 columns wide. -/
theorem pass2_eq (v0 : FVec Ideal S400x10000 .f32) (v2 : FVec Ideal S10000x256 .bf16) (v5 : FVec Ideal S1x256 .f32)
    (v14 : FVec Ideal S256x128 .f32) :
    k2_pay1 (F := Ideal) v0 v2 v5 v14 = featOf v0 v2 v5 v14 := by
  unfold k2_pay1
  show FloatOps.matmul dot_S400x256_S256x128_S400x128_1_0_0_1_n_n none
      (actVec (s := S400x256) (addf (F := Ideal) (φ := .f32)
        (FloatOps.matmul dot_S400x10000_S10000x256_S400x256_1_0_0_1_n_n none (truncf .bf16 v0 bitsLt_bf16_f32) (shapeCast S10000x256 v2 shapeCasts_S10000x256_S10000x256)
          (constant S400x256 .f32 0x00000000#32))
        (broadcastTo S400x256 (shapeCast S1x256 v5 shapeCasts_S1x256_S1x256) broadcasts_S1x256_S400x256)))
      v14 (constant S400x128 .f32 0x00000000#32) = _
  rw [shapeCast_self, shapeCast_self, actVec_add_bias _ v5 broadcasts_S1x256_S400x256 v0 v2
    (matmul_eq_mm rbc_400_10000_256 none (truncf .bf16 v0 bitsLt_bf16_f32) v2 : _ = mm v0 v2)]
  exact matmul_eq_mm rbc_400_256_128 none _ v14

/-- The last body stores the activation of adjacency-block · features + bias row. -/
theorem tail_eq (v0 : FVec Ideal S400x10000 .f32) (v2 : FVec Ideal S10000x128 .bf16) (v5 : FVec Ideal S1x128 .f32) :
    k3_pay1 (F := Ideal) v0 v2 v5 = dense v0 v2 v5 := by
  unfold k3_pay1
  show actVec (s := S400x128) (addf (F := Ideal) (φ := .f32)
        (FloatOps.matmul dot_S400x10000_S10000x128_S400x128_1_0_0_1_n_n none (truncf .bf16 v0 bitsLt_bf16_f32)
          (shapeCast S10000x128 v2 shapeCasts_S10000x128_S10000x128) (constant S400x128 .f32 0x00000000#32))
        (broadcastTo S400x128 (shapeCast S1x128 v5 shapeCasts_S1x128_S1x128) broadcasts_S1x128_S400x128)) = _
  rw [shapeCast_self, shapeCast_self]
  exact actVec_add_bias _ v5 broadcasts_S1x128_S400x128 v0 v2
    (matmul_eq_mm rbc_400_10000_128 none (truncf .bf16 v0 bitsLt_bf16_f32) v2 : _ = mm v0 v2)

end Cert.KernelIdeal.Body

end
-- ==== Proof.Region0.lean ====
/-
  The first launch: the array it leaves is one function of the arrays it finds.

  The grid has five points. Point t loads rows 2000 t … 2000 t + 1999 of the features and the whole of
  the two weight matrices, the bias row and the next weights, and writes back the same rows of the
  output. What it writes is the head body's value on those blocks, and a row of that value only depends on
  the same row of the features: so it is that block of rows of the specification's first feature matrix,
  computed from the whole arrays. The five blocks cover all 10000 rows.
-/
import proofs.«118676_g22600117912055_cont_8to1_816_2_alg».proof.Proof.Gen.KernelIdeal.Frame
import proofs.«118676_g22600117912055_cont_8to1_816_2_alg».proof.Proof.KernelBody
import Idealize.ShloMosaic.Lib.Pipeline.Value

set_option maxRecDepth 16384

noncomputable section

namespace Cert.KernelIdeal.Head

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature block and the output block of point t are block row t; every
    other operand is taken whole, at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output block of point t is block row t, at column block 0. -/
theorem idx_out (t : Fin cfg0.N) : win0_5.index t (0 : Fin 2) = t.val ∧ win0_5.index t (1 : Fin 2) = 0 := by
  obtain ⟨-, -, -, -, -, -, -, -, -, -, e0, e1⟩ := idx_facts t
  exact ⟨e0, e1⟩

/-- Row p of point t's feature block is row 2000 t + p of the feature array. -/
theorem blk_x (c : Dev nD) (t : Fin cfg0.N) (p : Fin 2000) (l : Fin 256) (r : Fin 10000)
    (hr : r.val = t.val * 2000 + p.val) : iblk0 V c 0 t (ix2 p l) = V c main_arg0 (ix2 r l) := by
  obtain ⟨e0, e1, -⟩ := idx_facts t
  show V c main_arg0 (((cfg0.win 0).blk t).view.emb (ix2 p l)) = V c main_arg0 (ix2 r l)
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * l.val = l.val; omega

/-- The block of the first weight matrix is the whole matrix. -/
theorem blk_g (c : Dev nD) (t : Fin cfg0.N) : iblk0 V c 1 t = V c main_arg2 := by
  obtain ⟨-, -, e0, e1, -⟩ := idx_facts t
  funext y
  show V c main_arg2 (((cfg0.win 1).blk t).view.emb y) = V c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The block of the second weight matrix is the whole matrix. -/
theorem blk_w0 (c : Dev nD) (t : Fin cfg0.N) : iblk0 V c 2 t = V c main_arg3 := by
  obtain ⟨-, -, -, -, e0, e1, -⟩ := idx_facts t
  funext y
  show V c main_arg3 (((cfg0.win 2).blk t).view.emb y) = V c main_arg3 y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- The block of the bias row is the whole row. -/
theorem blk_b (c : Dev nD) (t : Fin cfg0.N) : iblk0 V c 3 t = V c main_v0 := by
  obtain ⟨-, -, -, -, -, -, e0, e1, -⟩ := idx_facts t
  funext y
  show V c main_v0 (((cfg0.win 3).blk t).view.emb y) = V c main_v0 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- The block of the next layer's weights is the whole matrix. -/
theorem blk_w1 (c : Dev nD) (t : Fin cfg0.N) : iblk0 V c 4 t = V c main_arg5 := by
  obtain ⟨-, -, -, -, -, -, -, -, e0, e1, -⟩ := idx_facts t
  funext y
  show V c main_arg5 (((cfg0.win 4).blk t).view.emb y) = V c main_arg5 y
  refine congrArg _ (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

/-- The array the launch leaves, as a function of the arrays it finds. -/
abbrev out (c : Dev nD) : Mat 10000 256 :=
  featOf (V c main_arg0 : Mat 10000 256) (had (V c main_arg2 : Mat 256 256) (V c main_arg3)) (V c main_v0 : Mat 1 256)
    (V c main_arg5 : Mat 256 256)

/-- What point t writes back is block t of that array. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S256x256) hz, View.ld_unit_zero (S := S2000x256) hz, View.ld_unit_zero (S := S1x256) hz]
  rw [blk_g V c t, blk_w0 V c t, blk_b V c t, blk_w1 V c t]
  have ht : t.val < 5 := N_0 ▸ t.isLt
  obtain ⟨-, -, -, -, -, -, -, -, -, -, e0, e1⟩ := idx_facts t
  funext j
  obtain ⟨p, q, rfl⟩ : ∃ (p : Fin 2000) (q : Fin 256), j = ix2 p q := ⟨j 0, j 1, eq_ix2 j⟩
  have hemb : ((cfg0.win 5).blk t).view.emb (ix2 p q) = ix2 (⟨t.val * 2000 + p.val, by omega⟩ : Fin 10000) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show k0_pay1 (F := Ideal) (V c main_arg2) (V c main_arg3) (iblk0 V c 0 t) (V c main_v0) (V c main_arg5) (ix2 p q)
    = out V c (((cfg0.win 5).blk t).view.emb (ix2 p q))
  rw [hemb, head_eq]
  exact featOf_rows _ _ _ _ _ p _ (fun l => blk_x V c t p l _ rfl) q

/-- An index is in point t's output block iff each coordinate is in the block's range on its axis. -/
theorem mem_blk (t : Fin cfg0.N) (i : S10000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v1).slice (win0_5.rect t)).set ↔ _
  rw [View.set_slice_whole, Rect.mem_set_unit]
  exact Iff.rfl

/-- Every row of the output lies in the block of the point numbered by the row's quotient by 2000. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hlt : (i 0).val / 2000 < grid0.N := lt_of_lt_of_eq (by omega : (i 0).val / 2000 < 5) N_0.symm
  obtain ⟨t, ht⟩ : ∃ t : Fin cfg0.N, t.val = (i 0).val / 2000 := ⟨⟨(i 0).val / 2000, hlt⟩, rfl⟩
  have e0 := (idx_out t).1
  have e1 := (idx_out t).2
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- The array after the launch is that function of the arrays at its entry. -/
theorem final (c : Dev nD) : (dat0 V c).arrAt 5 cfg0.N = out V c :=
  (dat0 V c).arrAt_eq_of_cover 5 (out V c) (fun t _ => flushed_eq V c t) cover

end Cert.KernelIdeal.Head

end
-- ==== Proof.Region1.lean ====
/-
  The second launch: the array it leaves is one function of the arrays it finds.

  The grid has twenty-five points. Point t loads rows 400 t … 400 t + 399 of the adjacency matrix and the
  whole of the previous feature matrix, the bias row and the next weights, and writes back the same rows of
  the output. A row of the body's value only depends on the same row of the adjacency block, so what is
  written is that block of rows of (activation of adjacency · features + bias) · weights computed from the
  whole arrays. The twenty-five blocks cover all 10000 rows.
-/
import proofs.«118676_g22600117912055_cont_8to1_816_2_alg».proof.Proof.Gen.KernelIdeal.Frame
import proofs.«118676_g22600117912055_cont_8to1_816_2_alg».proof.Proof.KernelBody
import Idealize.ShloMosaic.Lib.Pipeline.Value

set_option maxRecDepth 16384

noncomputable section

namespace Cert.KernelIdeal.Pass1

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency block and the output block of point t are block row t; every
    other operand is taken whole, at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The output block of point t is block row t, at column block 0. -/
theorem idx_out (t : Fin cfg1.N) : win1_4.index t (0 : Fin 2) = t.val ∧ win1_4.index t (1 : Fin 2) = 0 := by
  obtain ⟨-, -, -, -, -, -, -, -, e0, e1⟩ := idx_facts t
  exact ⟨e0, e1⟩

/-- Row p of point t's adjacency block is row 400 t + p of the adjacency matrix. -/
theorem blk_adj (c : Dev nD) (t : Fin cfg1.N) (p : Fin 400) (l : Fin 10000) (r : Fin 10000)
    (hr : r.val = t.val * 400 + p.val) : iblk1 V c 0 t (ix2 p l) = V c main_arg1 (ix2 r l) := by
  obtain ⟨e0, e1, -⟩ := idx_facts t
  show V c main_arg1 (((cfg1.win 0).blk t).view.emb (ix2 p l)) = V c main_arg1 (ix2 r l)
  refine congrArg _ (funext fun a => Fin.ext ?_)
  match a with
  | ⟨0, _⟩ => show win1_0.index t (0 : Fin 2) * 400 + 1 * p.val = r.val; omega
  | ⟨1, _⟩ => show win1_0.index t (1 : Fin 2) * 10000 + 1 * l.val = l.val; omega

/-- The block of the previous features is the whole matrix. -/
theorem blk_s (c : Dev nD) (t : Fin cfg1.N) : iblk1 V c 1 t = V c main_v1 := by
  obtain ⟨-, -, e0, e1, -⟩ := idx_facts t
  funext y
  show V c main_v1 (((cfg1.win 1).blk t).view.emb y) = V c main_v1 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- The block of the bias row is the whole row. -/
theorem blk_b (c : Dev nD) (t : Fin cfg1.N) : iblk1 V c 2 t = V c main_v2 := by
  obtain ⟨-, -, -, -, e0, e1, -⟩ := idx_facts t
  funext y
  show V c main_v2 (((cfg1.win 2).blk t).view.emb y) = V c main_v2 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- The block of the next layer's weights is the whole matrix. -/
theorem blk_w (c : Dev nD) (t : Fin cfg1.N) : iblk1 V c 3 t = V c main_arg7 := by
  obtain ⟨-, -, -, -, -, -, e0, e1, -⟩ := idx_facts t
  funext y
  show V c main_arg7 (((cfg1.win 3).blk t).view.emb y) = V c main_arg7 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The array the launch leaves, as a function of the arrays it finds. -/
abbrev out (c : Dev nD) : Mat 10000 256 :=
  featOf (V c main_arg1 : Mat 10000 10000) (V c main_v1 : Mat 10000 256) (V c main_v2 : Mat 1 256)
    (V c main_arg7 : Mat 256 256)

/-- What point t writes back is block t of that array. -/
theorem flushed_eq (c : Dev nD) (t : Fin cfg1.N) :
    (dat1 V c).flushed 4 t = ((cfg1.win 4).blk t).view.read (Elt Ideal) (out V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x256) hz, View.ld_unit_zero (S := S1x256) hz, View.ld_unit_zero (S := S256x256) hz]
  rw [blk_s V c t, blk_b V c t, blk_w V c t]
  have ht : t.val < 25 := N_1 ▸ t.isLt
  have e0 := (idx_out t).1
  have e1 := (idx_out t).2
  funext j
  obtain ⟨p, q, rfl⟩ : ∃ (p : Fin 400) (q : Fin 256), j = ix2 p q := ⟨j 0, j 1, eq_ix2 j⟩
  have hemb : ((cfg1.win 4).blk t).view.emb (ix2 p q) = ix2 (⟨t.val * 400 + p.val, by omega⟩ : Fin 10000) q := by
    funext a; apply Fin.ext
    match a with
    | ⟨0, _⟩ => show win1_4.index t (0 : Fin 2) * 400 + 1 * p.val = t.val * 400 + p.val; omega
    | ⟨1, _⟩ => show win1_4.index t (1 : Fin 2) * 256 + 1 * q.val = q.val; omega
  show k1_pay1 (F := Ideal) (iblk1 V c 0 t) (V c main_v1) (V c main_v2) (V c main_arg7) (ix2 p q)
    = out V c (((cfg1.win 4).blk t).view.emb (ix2 p q))
  rw [hemb, pass1_eq]
  exact featOf_rows _ _ _ _ _ p _ (fun l => blk_adj V c t p l _ rfl) q

/-- An index is in point t's output block iff each coordinate is in the block's range on its axis. -/
theorem mem_blk (t : Fin cfg1.N) (i : S10000x256.Idx) :
    i ∈ ((cfg1.win 4).blk t).view.set ↔ ∀ a : Fin 2, win1_4.index t a * S400x256.size a ≤ (i a).val
      ∧ (i a).val < win1_4.index t a * S400x256.size a + S400x256.size a := by
  show i ∈ ((View.whole main_v3).slice (win1_4.rect t)).set ↔ _
  rw [View.set_slice_whole, Rect.mem_set_unit]
  exact Iff.rfl

/-- Every row of the output lies in the block of the point numbered by the row's quotient by 400. -/
theorem cover (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hlt : (i 0).val / 400 < grid1.N := lt_of_lt_of_eq (by omega : (i 0).val / 400 < 25) N_1.symm
  obtain ⟨t, ht⟩ : ∃ t : Fin cfg1.N, t.val = (i 0).val / 400 := ⟨⟨(i 0).val / 400, hlt⟩, rfl⟩
  have e0 := (idx_out t).1
  have e1 := (idx_out t).2
  refine ⟨t, flush1_4 t, ?_⟩
  rw [mem_blk]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 256 ≤ (i 1).val ∧ (i 1).val < win1_4.index t (1 : Fin 2) * 256 + 256
    omega

/-- The array after the launch is that function of the arrays at its entry. -/
theorem final (c : Dev nD) : (dat1 V c).arrAt 4 cfg1.N = out V c :=
  (dat1 V c).arrAt_eq_of_cover 4 (out V c) (fun t _ => flushed_eq V c t) cover

end Cert.KernelIdeal.Pass1

end
-- ==== Proof.Region2.lean ====
/-
  The third launch: as the second, with the next weights 128 columns wide.

  Point t of twenty-five loads rows 400 t … 400 t + 399 of the adjacency matrix and the whole of the
  previous feature matrix, the bias row and the next weights, and writes back the same rows of the output:
  that block of rows of (activation of adjacency · features + bias) · weights computed from the whole
  arrays. The blocks cover all 10000 rows.
-/
import proofs.«118676_g22600117912055_cont_8to1_816_2_alg».proof.Proof.Gen.KernelIdeal.Frame
import proofs.«118676_g22600117912055_cont_8to1_816_2_alg».proof.Proof.KernelBody
import Idealize.ShloMosaic.Lib.Pipeline.Value

set_option maxRecDepth 16384

noncomputable section

namespace Cert.KernelIdeal.Pass2

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency block and the output block of point t are block row t; every
    other operand is taken whole, at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The output block of point t is block row t, at column block 0. -/
theorem idx_out (t : Fin cfg2.N) : win2_4.index t (0 : Fin 2) = t.val ∧ win2_4.index t (1 : Fin 2) = 0 := by
  obtain ⟨-, -, -, -, -, -, -, -, e0, e1⟩ := idx_facts t
  exact ⟨e0, e1⟩

/-- Row p of point t's adjacency block is row 400 t + p of the adjacency matrix. -/
theorem blk_adj (c : Dev nD) (t : Fin cfg2.N) (p : Fin 400) (l : Fin 10000) (r : Fin 10000)
    (hr : r.val = t.val * 400 + p.val) : iblk2 V c 0 t (ix2 p l) = V c main_arg1 (ix2 r l) := by
  obtain ⟨e0, e1, -⟩ := idx_facts t
  show V c main_arg1 (((cfg2.win 0).blk t).view.emb (ix2 p l)) = V c main_arg1 (ix2 r l)
  refine congrArg _ (funext fun a => Fin.ext ?_)
  match a with
  | ⟨0, _⟩ => show win2_0.index t (0 : Fin 2) * 400 + 1 * p.val = r.val; omega
  | ⟨1, _⟩ => show win2_0.index t (1 : Fin 2) * 10000 + 1 * l.val = l.val; omega

/-- The block of the previous features is the whole matrix. -/
theorem blk_s (c : Dev nD) (t : Fin cfg2.N) : iblk2 V c 1 t = V c main_v3 := by
  obtain ⟨-, -, e0, e1, -⟩ := idx_facts t
  funext y
  show V c main_v3 (((cfg2.win 1).blk t).view.emb y) = V c main_v3 y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 256 + 1 * (y 1).val = (y 1).val; omega

/-- The block of the bias row is the whole row. -/
theorem blk_b (c : Dev nD) (t : Fin cfg2.N) : iblk2 V c 2 t = V c main_v4 := by
  obtain ⟨-, -, -, -, e0, e1, -⟩ := idx_facts t
  funext y
  show V c main_v4 (((cfg2.win 2).blk t).view.emb y) = V c main_v4 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- The block of the next layer's weights is the whole matrix. -/
theorem blk_w (c : Dev nD) (t : Fin cfg2.N) : iblk2 V c 3 t = V c main_arg9 := by
  obtain ⟨-, -, -, -, -, -, e0, e1, -⟩ := idx_facts t
  funext y
  show V c main_arg9 (((cfg2.win 3).blk t).view.emb y) = V c main_arg9 y
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- The array the launch leaves, as a function of the arrays it finds. -/
abbrev out (c : Dev nD) : Mat 10000 128 :=
  featOf (V c main_arg1 : Mat 10000 10000) (V c main_v3 : Mat 10000 256) (V c main_v4 : Mat 1 256)
    (V c main_arg9 : Mat 256 128)

/-- What point t writes back is block t of that array. -/
theorem flushed_eq (c : Dev nD) (t : Fin cfg2.N) :
    (dat2 V c).flushed 4 t = ((cfg2.win 4).blk t).view.read (Elt Ideal) (out V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x256) hz, View.ld_unit_zero (S := S1x256) hz, View.ld_unit_zero (S := S256x128) hz]
  rw [blk_s V c t, blk_b V c t, blk_w V c t]
  have ht : t.val < 25 := N_2 ▸ t.isLt
  have e0 := (idx_out t).1
  have e1 := (idx_out t).2
  funext j
  obtain ⟨p, q, rfl⟩ : ∃ (p : Fin 400) (q : Fin 128), j = ix2 p q := ⟨j 0, j 1, eq_ix2 j⟩
  have hemb : ((cfg2.win 4).blk t).view.emb (ix2 p q) = ix2 (⟨t.val * 400 + p.val, by omega⟩ : Fin 10000) q := by
    funext a; apply Fin.ext
    match a with
    | ⟨0, _⟩ => show win2_4.index t (0 : Fin 2) * 400 + 1 * p.val = t.val * 400 + p.val; omega
    | ⟨1, _⟩ => show win2_4.index t (1 : Fin 2) * 128 + 1 * q.val = q.val; omega
  show k2_pay1 (F := Ideal) (iblk2 V c 0 t) (V c main_v3) (V c main_v4) (V c main_arg9) (ix2 p q)
    = out V c (((cfg2.win 4).blk t).view.emb (ix2 p q))
  rw [hemb, pass2_eq]
  exact featOf_rows _ _ _ _ _ p _ (fun l => blk_adj V c t p l _ rfl) q

/-- An index is in point t's output block iff each coordinate is in the block's range on its axis. -/
theorem mem_blk (t : Fin cfg2.N) (i : S10000x128.Idx) :
    i ∈ ((cfg2.win 4).blk t).view.set ↔ ∀ a : Fin 2, win2_4.index t a * S400x128.size a ≤ (i a).val
      ∧ (i a).val < win2_4.index t a * S400x128.size a + S400x128.size a := by
  show i ∈ ((View.whole main_v5).slice (win2_4.rect t)).set ↔ _
  rw [View.set_slice_whole, Rect.mem_set_unit]
  exact Iff.rfl

/-- Every row of the output lies in the block of the point numbered by the row's quotient by 400. -/
theorem cover (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hlt : (i 0).val / 400 < grid2.N := lt_of_lt_of_eq (by omega : (i 0).val / 400 < 25) N_2.symm
  obtain ⟨t, ht⟩ : ∃ t : Fin cfg2.N, t.val = (i 0).val / 400 := ⟨⟨(i 0).val / 400, hlt⟩, rfl⟩
  have e0 := (idx_out t).1
  have e1 := (idx_out t).2
  refine ⟨t, flush2_4 t, ?_⟩
  rw [mem_blk]
  intro a
  match a with
  | ⟨0, _⟩ =>
    show win2_4.index t (0 : Fin 2) * 400 ≤ (i 0).val ∧ (i 0).val < win2_4.index t (0 : Fin 2) * 400 + 400
    omega
  | ⟨1, _⟩ =>
    show win2_4.index t (1 : Fin 2) * 128 ≤ (i 1).val ∧ (i 1).val < win2_4.index t (1 : Fin 2) * 128 + 128
    omega

/-- The array after the launch is that function of the arrays at its entry. -/
theorem final (c : Dev nD) : (dat2 V c).arrAt 4 cfg2.N = out V c :=
  (dat2 V c).arrAt_eq_of_cover 4 (out V c) (fun t _ => flushed_eq V c t) cover

end Cert.KernelIdeal.Pass2

end
-- ==== Proof.Region3.lean ====
/-
  The last launch: the array it leaves is the last layer of the arrays it finds.

  Point t of twenty-five loads rows 400 t … 400 t + 399 of the adjacency matrix and the whole of the
  previous feature matrix and the bias row, and writes back the same rows of the result: that block of rows
  of the activation of adjacency · features + bias computed from the whole arrays. The blocks cover all
  10000 rows.
-/
import proofs.«118676_g22600117912055_cont_8to1_816_2_alg».proof.Proof.Gen.KernelIdeal.Frame
import proofs.«118676_g22600117912055_cont_8to1_816_2_alg».proof.Proof.KernelBody
import Idealize.ShloMosaic.Lib.Pipeline.Value

set_option maxRecDepth 16384

noncomputable section

namespace Cert.KernelIdeal.Tail

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the adjacency block and the output block of point t are block row t; every
    other operand is taken whole, at the origin. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The output block of point t is block row t, at column block 0. -/
theorem idx_out (t : Fin cfg3.N) : win3_3.index t (0 : Fin 2) = t.val ∧ win3_3.index t (1 : Fin 2) = 0 := by
  obtain ⟨-, -, -, -, -, -, e0, e1⟩ := idx_facts t
  exact ⟨e0, e1⟩

/-- Row p of point t's adjacency block is row 400 t + p of the adjacency matrix. -/
theorem blk_adj (c : Dev nD) (t : Fin cfg3.N) (p : Fin 400) (l : Fin 10000) (r : Fin 10000)
    (hr : r.val = t.val * 400 + p.val) : iblk3 V c 0 t (ix2 p l) = V c main_arg1 (ix2 r l) := by
  obtain ⟨e0, e1, -⟩ := idx_facts t
  show V c main_arg1 (((cfg3.win 0).blk t).view.emb (ix2 p l)) = V c main_arg1 (ix2 r l)
  refine congrArg _ (funext fun a => Fin.ext ?_)
  match a with
  | ⟨0, _⟩ => show win3_0.index t (0 : Fin 2) * 400 + 1 * p.val = r.val; omega
  | ⟨1, _⟩ => show win3_0.index t (1 : Fin 2) * 10000 + 1 * l.val = l.val; omega

/-- The block of the previous features is the whole matrix. -/
theorem blk_s (c : Dev nD) (t : Fin cfg3.N) : iblk3 V c 1 t = V c main_v5 := by
  obtain ⟨-, -, e0, e1, -⟩ := idx_facts t
  funext y
  show V c main_v5 (((cfg3.win 1).blk t).view.emb y) = V c main_v5 y
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 128 + 1 * (y 1).val = (y 1).val; omega

/-- The block of the bias row is the whole row. -/
theorem blk_b (c : Dev nD) (t : Fin cfg3.N) : iblk3 V c 2 t = V c main_v6 := by
  obtain ⟨-, -, -, -, e0, e1, -⟩ := idx_facts t
  funext y
  show V c main_v6 (((cfg3.win 2).blk t).view.emb y) = V c main_v6 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The array the launch leaves, as a function of the arrays it finds. -/
abbrev out (c : Dev nD) : Mat 10000 128 :=
  dense (V c main_arg1 : Mat 10000 10000) (V c main_v5 : Mat 10000 128) (V c main_v6 : Mat 1 128)

/-- What point t writes back is block t of that array. -/
theorem flushed_eq (c : Dev nD) (t : Fin cfg3.N) :
    (dat3 V c).flushed 3 t = ((cfg3.win 3).blk t).view.read (Elt Ideal) (out V c) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x128) hz, View.ld_unit_zero (S := S1x128) hz]
  rw [blk_s V c t, blk_b V c t]
  have ht : t.val < 25 := N_3 ▸ t.isLt
  have e0 := (idx_out t).1
  have e1 := (idx_out t).2
  funext j
  obtain ⟨p, q, rfl⟩ : ∃ (p : Fin 400) (q : Fin 128), j = ix2 p q := ⟨j 0, j 1, eq_ix2 j⟩
  have hemb : ((cfg3.win 3).blk t).view.emb (ix2 p q) = ix2 (⟨t.val * 400 + p.val, by omega⟩ : Fin 10000) q := by
    funext a; apply Fin.ext
    match a with
    | ⟨0, _⟩ => show win3_3.index t (0 : Fin 2) * 400 + 1 * p.val = t.val * 400 + p.val; omega
    | ⟨1, _⟩ => show win3_3.index t (1 : Fin 2) * 128 + 1 * q.val = q.val; omega
  show k3_pay1 (F := Ideal) (iblk3 V c 0 t) (V c main_v5) (V c main_v6) (ix2 p q)
    = out V c (((cfg3.win 3).blk t).view.emb (ix2 p q))
  rw [hemb, tail_eq]
  exact dense_rows _ _ _ _ p _ (fun l => blk_adj V c t p l _ rfl) q

/-- An index is in point t's output block iff each coordinate is in the block's range on its axis. -/
theorem mem_blk (t : Fin cfg3.N) (i : S10000x128.Idx) :
    i ∈ ((cfg3.win 3).blk t).view.set ↔ ∀ a : Fin 2, win3_3.index t a * S400x128.size a ≤ (i a).val
      ∧ (i a).val < win3_3.index t a * S400x128.size a + S400x128.size a := by
  show i ∈ ((View.whole main_v7).slice (win3_3.rect t)).set ↔ _
  rw [View.set_slice_whole, Rect.mem_set_unit]
  exact Iff.rfl

/-- Every row of the output lies in the block of the point numbered by the row's quotient by 400. -/
theorem cover (i : S10000x128.Idx) :
    ∃ t : Fin cfg3.N, (cfg3.win 3).flush t = true ∧ i ∈ ((cfg3.win 3).blk t).view.set := by
  have hi0 : (i 0).val < 10000 := (i 0).isLt
  have hi1 : (i 1).val < 128 := (i 1).isLt
  have hlt : (i 0).val / 400 < grid3.N := lt_of_lt_of_eq (by omega : (i 0).val / 400 < 25) N_3.symm
  obtain ⟨t, ht⟩ : ∃ t : Fin cfg3.N, t.val = (i 0).val / 400 := ⟨⟨(i 0).val / 400, hlt⟩, rfl⟩
  have e0 := (idx_out t).1
  have e1 := (idx_out t).2
  refine ⟨t, flush3_3 t, ?_⟩
  rw [mem_blk]
  intro a
  match a with
  | ⟨0, _⟩ =>
    show win3_3.index t (0 : Fin 2) * 400 ≤ (i 0).val ∧ (i 0).val < win3_3.index t (0 : Fin 2) * 400 + 400
    omega
  | ⟨1, _⟩ =>
    show win3_3.index t (1 : Fin 2) * 128 ≤ (i 1).val ∧ (i 1).val < win3_3.index t (1 : Fin 2) * 128 + 128
    omega

/-- The array after the launch is that function of the arrays at its entry. -/
theorem final (c : Dev nD) : (dat3 V c).arrAt 3 cfg3.N = out V c :=
  (dat3 V c).arrAt_eq_of_cover 3 (out V c) (fun t _ => flushed_eq V c t) cover

end Cert.KernelIdeal.Tail

end
-- ==== Proof.Chain.lean ====
/-
  The kernel's result array is the whole network of the argument arrays.

  Between the launch and the return the memory goes through eight boundaries: a reshape of a bias vector
  into a row, then a launch, four times over. A reshape writes only its own row; a launch writes only its
  own output array. So at each launch's entry the adjacency matrix and the weights are still the argument
  arrays, the bias row is the reshaped bias vector, and the feature matrix is what the previous launch
  left. Substituting each launch's output into the next gives the specification's network.
-/
import proofs.«118676_g22600117912055_cont_8to1_816_2_alg».proof.Proof.Gen.KernelIdeal.Frame
import proofs.«118676_g22600117912055_cont_8to1_816_2_alg».proof.Proof.Region0
import proofs.«118676_g22600117912055_cont_8to1_816_2_alg».proof.Proof.Region1
import proofs.«118676_g22600117912055_cont_8to1_816_2_alg».proof.Proof.Region2
import proofs.«118676_g22600117912055_cont_8to1_816_2_alg».proof.Proof.Region3
import Idealize.ShloMosaic.Lib.ValueLayout
import Idealize.ShloMosaic.Lib.StableHlo.Run

set_option maxRecDepth 16384

noncomputable section

namespace Cert.KernelIdeal.Chain

open Cert.KernelIdeal Cert.KernelIdeal.Gen Cert.Gcn
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- A vector reshaped to a single row is that vector laid out as a row. -/
theorem reshape_row {b : Nat} (x : Row b) (h : (⟨1, ![b]⟩ : Shape).ShapeCasts ⟨2, ![1, b]⟩) :
    shapeCast ⟨2, ![1, b]⟩ x h = asRow x := by
  funext j
  obtain ⟨u, k, rfl⟩ : ∃ (u : Fin 1) (k : Fin b), j = ix2 u k := ⟨j 0, j 1, eq_ix2 j⟩
  exact shapeCast_a_1a_apply x h u k

/-! ## The argument arrays, named -/

abbrev X (c : Dev nD) : Mat 10000 256 := m ((c : Thread nD τ).loc main_arg0)
abbrev A (c : Dev nD) : Mat 10000 10000 := m ((c : Thread nD τ).loc main_arg1)
abbrev G (c : Dev nD) : Mat 256 256 := m ((c : Thread nD τ).loc main_arg2)
abbrev W0m (c : Dev nD) : Mat 256 256 := m ((c : Thread nD τ).loc main_arg3)
abbrev B0 (c : Dev nD) : Row 256 := m ((c : Thread nD τ).loc main_arg4)
abbrev W1m (c : Dev nD) : Mat 256 256 := m ((c : Thread nD τ).loc main_arg5)
abbrev B1 (c : Dev nD) : Row 256 := m ((c : Thread nD τ).loc main_arg6)
abbrev W2m (c : Dev nD) : Mat 256 256 := m ((c : Thread nD τ).loc main_arg7)
abbrev B2 (c : Dev nD) : Row 256 := m ((c : Thread nD τ).loc main_arg8)
abbrev W3m (c : Dev nD) : Mat 256 128 := m ((c : Thread nD τ).loc main_arg9)
abbrev B3 (c : Dev nD) : Row 128 := m ((c : Thread nD τ).loc main_arg10)

/-! ## A reshape writes only its own row -/

theorem host0_keep (W : Valuation τ sig (Elt Ideal)) (b : Ref sig .tc) (h : b ≠ main_v0) :
    StableHlo.after hostOps0 W (Proc.devRef .tc b) = W (Proc.devRef .tc b) := by
  simp only [after_cons, after_nil]
  exact reshape_result_ne _ _ _ _ _ _ W h

theorem host1_keep (W : Valuation τ sig (Elt Ideal)) (b : Ref sig .tc) (h : b ≠ main_v2) :
    StableHlo.after hostOps1 W (Proc.devRef .tc b) = W (Proc.devRef .tc b) := by
  simp only [after_cons, after_nil]
  exact reshape_result_ne _ _ _ _ _ _ W h

theorem host2_keep (W : Valuation τ sig (Elt Ideal)) (b : Ref sig .tc) (h : b ≠ main_v4) :
    StableHlo.after hostOps2 W (Proc.devRef .tc b) = W (Proc.devRef .tc b) := by
  simp only [after_cons, after_nil]
  exact reshape_result_ne _ _ _ _ _ _ W h

theorem host3_keep (W : Valuation τ sig (Elt Ideal)) (b : Ref sig .tc) (h : b ≠ main_v6) :
    StableHlo.after hostOps3 W (Proc.devRef .tc b) = W (Proc.devRef .tc b) := by
  simp only [after_cons, after_nil]
  exact reshape_result_ne _ _ _ _ _ _ W h

theorem host0_row (W : Valuation τ sig (Elt Ideal)) :
    StableHlo.after hostOps0 W (Proc.devRef .tc main_v0) = asRow (W (Proc.devRef .tc main_arg4) : Row 256) := by
  simp only [after_cons, after_nil]
  rw [reshape_result]
  exact reshape_row (W (Proc.devRef .tc main_arg4) : Row 256) _

theorem host1_row (W : Valuation τ sig (Elt Ideal)) :
    StableHlo.after hostOps1 W (Proc.devRef .tc main_v2) = asRow (W (Proc.devRef .tc main_arg6) : Row 256) := by
  simp only [after_cons, after_nil]
  rw [reshape_result]
  exact reshape_row (W (Proc.devRef .tc main_arg6) : Row 256) _

theorem host2_row (W : Valuation τ sig (Elt Ideal)) :
    StableHlo.after hostOps2 W (Proc.devRef .tc main_v4) = asRow (W (Proc.devRef .tc main_arg8) : Row 256) := by
  simp only [after_cons, after_nil]
  rw [reshape_result]
  exact reshape_row (W (Proc.devRef .tc main_arg8) : Row 256) _

theorem host3_row (W : Valuation τ sig (Elt Ideal)) :
    StableHlo.after hostOps3 W (Proc.devRef .tc main_v6) = asRow (W (Proc.devRef .tc main_arg10) : Row 128) := by
  simp only [after_cons, after_nil]
  rw [reshape_result]
  exact reshape_row (W (Proc.devRef .tc main_arg10) : Row 128) _

/-! ## An array that no reshape and no launch writes is still the argument array -/

theorem keep1 (c : Dev nD) (b : Ref sig .tc) (h0 : b ≠ main_v0) :
    W1 m ρ c (Proc.devRef .tc b) = m ((c : Thread nD τ).loc b) :=
  host0_keep (W0 m ρ c) b h0

theorem keep2 (c : Dev nD) (b : Ref sig .tc) (h0 : b ≠ main_v0) (s0 : ∀ w, Pipeline.arrRef spec0 w ≠ b) :
    W2 m ρ c (Proc.devRef .tc b) = m ((c : Thread nD τ).loc b) :=
  (W2_of_ne m ρ c b s0).trans (keep1 m ρ c b h0)

theorem keep3 (c : Dev nD) (b : Ref sig .tc) (h0 : b ≠ main_v0) (s0 : ∀ w, Pipeline.arrRef spec0 w ≠ b) (h1 : b ≠ main_v2) :
    W3 m ρ c (Proc.devRef .tc b) = m ((c : Thread nD τ).loc b) :=
  (host1_keep (W2 m ρ c) b h1).trans (keep2 m ρ c b h0 s0)

theorem keep4 (c : Dev nD) (b : Ref sig .tc) (h0 : b ≠ main_v0) (s0 : ∀ w, Pipeline.arrRef spec0 w ≠ b) (h1 : b ≠ main_v2)
    (s1 : ∀ w, Pipeline.arrRef spec1 w ≠ b) : W4 m ρ c (Proc.devRef .tc b) = m ((c : Thread nD τ).loc b) :=
  (W4_of_ne m ρ c b s1).trans (keep3 m ρ c b h0 s0 h1)

theorem keep5 (c : Dev nD) (b : Ref sig .tc) (h0 : b ≠ main_v0) (s0 : ∀ w, Pipeline.arrRef spec0 w ≠ b) (h1 : b ≠ main_v2)
    (s1 : ∀ w, Pipeline.arrRef spec1 w ≠ b) (h2 : b ≠ main_v4) : W5 m ρ c (Proc.devRef .tc b) = m ((c : Thread nD τ).loc b) :=
  (host2_keep (W4 m ρ c) b h2).trans (keep4 m ρ c b h0 s0 h1 s1)

theorem keep6 (c : Dev nD) (b : Ref sig .tc) (h0 : b ≠ main_v0) (s0 : ∀ w, Pipeline.arrRef spec0 w ≠ b) (h1 : b ≠ main_v2)
    (s1 : ∀ w, Pipeline.arrRef spec1 w ≠ b) (h2 : b ≠ main_v4) (s2 : ∀ w, Pipeline.arrRef spec2 w ≠ b) :
    W6 m ρ c (Proc.devRef .tc b) = m ((c : Thread nD τ).loc b) :=
  (W6_of_ne m ρ c b s2).trans (keep5 m ρ c b h0 s0 h1 s1 h2)

/-! ## The adjacency matrix is read by three launches and written by none -/

theorem adj3 (c : Dev nD) : W3 m ρ c (Proc.devRef .tc main_arg1) = A m c :=
  keep3 m ρ c main_arg1 (by decide) (by decide) (by decide)

theorem adj5 (c : Dev nD) : W5 m ρ c (Proc.devRef .tc main_arg1) = A m c :=
  (host2_keep (W4 m ρ c) main_arg1 (by decide)).trans
    (((W4_arr m ρ c 0).trans (((dat1 (V3 m ρ) c).arrAt_in 0 rfl _).trans (A_eq1 (V3 m ρ) c 0))).trans (adj3 m ρ c))

theorem adj7 (c : Dev nD) : W7 m ρ c (Proc.devRef .tc main_arg1) = A m c :=
  (host3_keep (W6 m ρ c) main_arg1 (by decide)).trans
    (((W6_arr m ρ c 0).trans (((dat2 (V5 m ρ) c).arrAt_in 0 rfl _).trans (A_eq2 (V5 m ρ) c 0))).trans (adj5 m ρ c))

/-! ## The first launch leaves the first feature matrix -/

theorem out0 (c : Dev nD) :
    W2 m ρ c (Proc.devRef .tc main_v1) = feat1 (X m c) (G m c) (W0m m c) (B0 m c) (W1m m c) := by
  refine ((W2_arr m ρ c 5).trans (Head.final (V1 m ρ) c)).trans ?_
  show featOf (W1 m ρ c (Proc.devRef .tc main_arg0) : Mat 10000 256)
      (had (W1 m ρ c (Proc.devRef .tc main_arg2) : Mat 256 256) (W1 m ρ c (Proc.devRef .tc main_arg3)))
      (W1 m ρ c (Proc.devRef .tc main_v0) : Mat 1 256) (W1 m ρ c (Proc.devRef .tc main_arg5) : Mat 256 256) = _
  rw [keep1 m ρ c main_arg0 (by decide), keep1 m ρ c main_arg2 (by decide), keep1 m ρ c main_arg3 (by decide),
    keep1 m ρ c main_arg5 (by decide), show W1 m ρ c (Proc.devRef .tc main_v0) = _ from host0_row (W0 m ρ c)]
  rfl

/-! ## The second launch leaves the second feature matrix -/

theorem out1 (c : Dev nD) :
    W4 m ρ c (Proc.devRef .tc main_v3)
      = feat2 (X m c) (A m c) (G m c) (W0m m c) (B0 m c) (W1m m c) (B1 m c) (W2m m c) := by
  refine ((W4_arr m ρ c 4).trans (Pass1.final (V3 m ρ) c)).trans ?_
  show featOf (W3 m ρ c (Proc.devRef .tc main_arg1) : Mat 10000 10000) (W3 m ρ c (Proc.devRef .tc main_v1) : Mat 10000 256)
      (W3 m ρ c (Proc.devRef .tc main_v2) : Mat 1 256) (W3 m ρ c (Proc.devRef .tc main_arg7) : Mat 256 256) = _
  rw [adj3 m ρ c, keep3 m ρ c main_arg7 (by decide) (by decide) (by decide),
    show W3 m ρ c (Proc.devRef .tc main_v1) = _ from (host1_keep (W2 m ρ c) main_v1 (by decide)).trans (out0 m ρ c),
    show W3 m ρ c (Proc.devRef .tc main_v2) = _ from host1_row (W2 m ρ c),
    keep2 m ρ c main_arg6 (by decide) (by decide)]
  rfl

/-! ## The third launch leaves the third feature matrix -/

theorem out2 (c : Dev nD) :
    W6 m ρ c (Proc.devRef .tc main_v5)
      = feat3 (X m c) (A m c) (G m c) (W0m m c) (B0 m c) (W1m m c) (B1 m c) (W2m m c) (B2 m c) (W3m m c) := by
  refine ((W6_arr m ρ c 4).trans (Pass2.final (V5 m ρ) c)).trans ?_
  show featOf (W5 m ρ c (Proc.devRef .tc main_arg1) : Mat 10000 10000) (W5 m ρ c (Proc.devRef .tc main_v3) : Mat 10000 256)
      (W5 m ρ c (Proc.devRef .tc main_v4) : Mat 1 256) (W5 m ρ c (Proc.devRef .tc main_arg9) : Mat 256 128) = _
  rw [adj5 m ρ c, keep5 m ρ c main_arg9 (by decide) (by decide) (by decide) (by decide) (by decide),
    show W5 m ρ c (Proc.devRef .tc main_v3) = _ from (host2_keep (W4 m ρ c) main_v3 (by decide)).trans (out1 m ρ c),
    show W5 m ρ c (Proc.devRef .tc main_v4) = _ from host2_row (W4 m ρ c),
    keep4 m ρ c main_arg8 (by decide) (by decide) (by decide) (by decide)]
  rfl

/-! ## The last launch leaves the network's output -/

/-- The result array at the last boundary is the whole network of the argument arrays. -/
theorem result (c : Dev nD) :
    W8 m ρ c (Proc.devRef .tc main_v7)
      = net (X m c) (A m c) (G m c) (W0m m c) (B0 m c) (W1m m c) (B1 m c) (W2m m c) (B2 m c) (W3m m c) (B3 m c) := by
  refine ((W8_arr m ρ c 3).trans (Tail.final (V7 m ρ) c)).trans ?_
  show dense (W7 m ρ c (Proc.devRef .tc main_arg1) : Mat 10000 10000) (W7 m ρ c (Proc.devRef .tc main_v5) : Mat 10000 128)
      (W7 m ρ c (Proc.devRef .tc main_v6) : Mat 1 128) = _
  rw [adj7 m ρ c,
    show W7 m ρ c (Proc.devRef .tc main_v5) = _ from (host3_keep (W6 m ρ c) main_v5 (by decide)).trans (out2 m ρ c),
    show W7 m ρ c (Proc.devRef .tc main_v6) = _ from host3_row (W6 m ρ c),
    keep6 m ρ c main_arg10 (by decide) (by decide) (by decide) (by decide) (by decide) (by decide)]
  rfl

end Cert.KernelIdeal.Chain

end
-- ==== Proof.RefRead.lean ====
/-
  The reference program, stage by stage, as the matrix algebra of the specification.

  Each of its four layers is a host matrix product (two of them from the second layer on: the features by
  the weights, then the adjacency matrix by that), the bias vector laid out as a row and repeated over the
  rows, a comparison with zero, a product with a quarter and a choice between the two. Read index by index
  these are the specification's product, layer and activation, and the last stage is the whole network.
-/
import proofs.«118676_g22600117912055_cont_8to1_816_2_alg».proof.Proof.Gen.ReferenceIdeal.Read
import proofs.«118676_g22600117912055_cont_8to1_816_2_alg».proof.Proof.Layer

noncomputable section

namespace Cert.ReferenceIdeal.Stages

open Idealize.ShloMosaic Idealize.ShloMosaic.ValueIdx Cert.ReferenceIdeal Cert.ReferenceIdeal.Read Cert.Gcn

/-- Features [10000, 256] against weights [256, 256]: the row-by-column product. -/
theorem rbc_n_256_256 : RowByCol dot_S10000x256_S256x256_S10000x256_1_0_0_1_n_n :=
  ⟨rfl, rfl, lhs_main_v1_0, lhs_main_v1_1, rhs_main_v1_0, rhs_main_v1_1⟩

/-- The adjacency matrix against features [10000, 256]: the row-by-column product. -/
theorem rbc_n_n_256 : RowByCol dot_S10000x10000_S10000x256_S10000x256_1_0_0_1_n_n :=
  ⟨rfl, rfl, lhs_main_v11_0, lhs_main_v11_1, rhs_main_v11_0, rhs_main_v11_1⟩

/-- Features [10000, 256] against weights [256, 128]: the row-by-column product. -/
theorem rbc_n_256_128 : RowByCol dot_S10000x256_S256x128_S10000x128_1_0_0_1_n_n :=
  ⟨rfl, rfl, lhs_main_v30_0, lhs_main_v30_1, rhs_main_v30_0, rhs_main_v30_1⟩

/-- The adjacency matrix against features [10000, 128]: the row-by-column product. -/
theorem rbc_n_n_128 : RowByCol dot_S10000x10000_S10000x128_S10000x128_1_0_0_1_n_n :=
  ⟨rfl, rfl, lhs_main_v31_0, lhs_main_v31_1, rhs_main_v31_0, rhs_main_v31_1⟩

/-- A product plus a bias repeated over the rows, compared with zero, multiplied by a quarter and chosen
    between, as the host spells it with whole arrays of the two constants, is one layer. -/
theorem host_layer {a K b : Nat} (P : Mat a b) (A : Mat a K) (S : Mat K b) (hP : P = mm A S) (B : Mat a b)
    (bias : Mat 1 b) (hB : ∀ i, B i = bias (ix2 0 (i 1))) (Zero Quarter : Mat a b)
    (hZ : ∀ i, Zero i = Ideal.ofBits .f32 0x00000000#32) (hQ : ∀ i, Quarter i = Ideal.ofBits .f32 0x3E800000#32) :
    select (cmpf (F := Ideal) (φ := .f32) .oge (addf (F := Ideal) (φ := .f32) P B) Zero) (addf (F := Ideal) (φ := .f32) P B)
      (mulf (F := Ideal) (φ := .f32) Quarter (addf (F := Ideal) (φ := .f32) P B)) = dense A S bias := by
  funext i
  show Scalar.select (FloatOps.cmpf (F := Ideal) (φ := .f32) .oge (P i + B i) (Zero i)) (P i + B i) (Quarter i * (P i + B i))
    = act (mm A S i + bias (ix2 0 (i 1)))
  rw [hZ, hQ, hB, hP]
  rfl

/-! ## The bias rows and the two constants, read at an index -/

theorem bias0 (x : (⟨S256, .f32⟩ : BufTy).Contents (Elt Ideal)) (i : S10000x256.Idx) :
    val_main_v3 (F := Ideal) x i = asRow x (ix2 0 (i 1)) := by
  rw [val_main_v3_apply, val_main_v2_apply]
  exact congrArg x (funext fun a => match a with | ⟨0, _⟩ => rfl)

theorem bias1 (x : (⟨S256, .f32⟩ : BufTy).Contents (Elt Ideal)) (i : S10000x256.Idx) :
    val_main_v13 (F := Ideal) x i = asRow x (ix2 0 (i 1)) := by
  rw [val_main_v13_apply, val_main_v12_apply]
  exact congrArg x (funext fun a => match a with | ⟨0, _⟩ => rfl)

theorem bias2 (x : (⟨S256, .f32⟩ : BufTy).Contents (Elt Ideal)) (i : S10000x256.Idx) :
    val_main_v23 (F := Ideal) x i = asRow x (ix2 0 (i 1)) := by
  rw [val_main_v23_apply, val_main_v22_apply]
  exact congrArg x (funext fun a => match a with | ⟨0, _⟩ => rfl)

theorem bias3 (x : (⟨S128, .f32⟩ : BufTy).Contents (Elt Ideal)) (i : S10000x128.Idx) :
    val_main_v33 (F := Ideal) x i = asRow x (ix2 0 (i 1)) := by
  rw [val_main_v33_apply, val_main_v32_apply]
  exact congrArg x (funext fun a => match a with | ⟨0, _⟩ => rfl)

theorem zero0 (i : S10000x256.Idx) : val_main_v5 (F := Ideal) i = Ideal.ofBits .f32 0x00000000#32 := by
  rw [val_main_v5_apply, val_main_cst_apply]; rfl

theorem quarter0 (i : S10000x256.Idx) : val_main_v7 (F := Ideal) i = Ideal.ofBits .f32 0x3E800000#32 := by
  rw [val_main_v7_apply, val_main_cst_0_apply]; rfl

theorem zero1 (i : S10000x256.Idx) : val_main_v15 (F := Ideal) i = Ideal.ofBits .f32 0x00000000#32 := by
  rw [val_main_v15_apply, val_main_cst_1_apply]; rfl

theorem quarter1 (i : S10000x256.Idx) : val_main_v17 (F := Ideal) i = Ideal.ofBits .f32 0x3E800000#32 := by
  rw [val_main_v17_apply, val_main_cst_2_apply]; rfl

theorem zero2 (i : S10000x256.Idx) : val_main_v25 (F := Ideal) i = Ideal.ofBits .f32 0x00000000#32 := by
  rw [val_main_v25_apply, val_main_cst_3_apply]; rfl

theorem quarter2 (i : S10000x256.Idx) : val_main_v27 (F := Ideal) i = Ideal.ofBits .f32 0x3E800000#32 := by
  rw [val_main_v27_apply, val_main_cst_4_apply]; rfl

theorem zero3 (i : S10000x128.Idx) : val_main_v35 (F := Ideal) i = Ideal.ofBits .f32 0x00000000#32 := by
  rw [val_main_v35_apply, val_main_cst_5_apply]; rfl

theorem quarter3 (i : S10000x128.Idx) : val_main_v37 (F := Ideal) i = Ideal.ofBits .f32 0x3E800000#32 := by
  rw [val_main_v37_apply, val_main_cst_6_apply]; rfl

/-! ## The stages -/

/-- The first layer: features times the entrywise product of the two weight matrices, plus bias, activated. -/
theorem layer0 (x0 : (⟨S10000x256, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) :
    val_main_v9 (F := Ideal) x0 x2 x3 x4 = dense x0 (had x2 x3) (asRow x4) :=
  host_layer (val_main_v1 (F := Ideal) x0 x2 x3) x0 (had x2 x3)
    (dotGeneral_eq_mm rbc_n_256_256 none _ x0 (had x2 x3)) (val_main_v3 (F := Ideal) x4) (asRow x4) (bias0 x4)
    (val_main_v5 (F := Ideal)) (val_main_v7 (F := Ideal)) zero0 quarter0

/-- Its output times the second layer's weights. -/
theorem stage_feat1 (x0 : (⟨S10000x256, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) :
    val_main_v10 (F := Ideal) x0 x2 x3 x4 x5 = feat1 x0 x2 x3 (x4 : Row 256) x5 := by
  unfold val_main_v10
  rw [layer0]
  exact dotGeneral_eq_mm rbc_n_256_256 none _ _ x5

/-- The adjacency matrix times those features. -/
theorem prod1 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) :
    val_main_v11 (F := Ideal) x0 x1 x2 x3 x4 x5 = mm x1 (feat1 x0 x2 x3 (x4 : Row 256) x5) := by
  unfold val_main_v11
  rw [stage_feat1]
  exact dotGeneral_eq_mm rbc_n_n_256 none _ x1 _

/-- The second layer. -/
theorem layer1 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) :
    val_main_v19 (F := Ideal) x0 x1 x2 x3 x4 x5 x6 = dense x1 (feat1 x0 x2 x3 (x4 : Row 256) x5) (asRow x6) :=
  host_layer (val_main_v11 (F := Ideal) x0 x1 x2 x3 x4 x5) x1 (feat1 x0 x2 x3 (x4 : Row 256) x5) (prod1 x0 x1 x2 x3 x4 x5)
    (val_main_v13 (F := Ideal) x6) (asRow x6) (bias1 x6) (val_main_v15 (F := Ideal)) (val_main_v17 (F := Ideal)) zero1 quarter1

/-- Its output times the third layer's weights. -/
theorem stage_feat2 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v20 (F := Ideal) x0 x1 x2 x3 x4 x5 x6 x7 = feat2 x0 x1 x2 x3 (x4 : Row 256) x5 (x6 : Row 256) x7 := by
  unfold val_main_v20
  rw [layer1]
  exact dotGeneral_eq_mm rbc_n_256_256 none _ _ x7

/-- The adjacency matrix times those features. -/
theorem prod2 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v21 (F := Ideal) x0 x1 x2 x3 x4 x5 x6 x7 = mm x1 (feat2 x0 x1 x2 x3 (x4 : Row 256) x5 (x6 : Row 256) x7) := by
  unfold val_main_v21
  rw [stage_feat2]
  exact dotGeneral_eq_mm rbc_n_n_256 none _ x1 _

/-- The third layer. -/
theorem layer2 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) :
    val_main_v29 (F := Ideal) x0 x1 x2 x3 x4 x5 x6 x7 x8 = dense x1 (feat2 x0 x1 x2 x3 (x4 : Row 256) x5 (x6 : Row 256) x7) (asRow x8) :=
  host_layer (val_main_v21 (F := Ideal) x0 x1 x2 x3 x4 x5 x6 x7) x1 (feat2 x0 x1 x2 x3 (x4 : Row 256) x5 (x6 : Row 256) x7) (prod2 x0 x1 x2 x3 x4 x5 x6 x7)
    (val_main_v23 (F := Ideal) x8) (asRow x8) (bias2 x8) (val_main_v25 (F := Ideal)) (val_main_v27 (F := Ideal)) zero2 quarter2

/-- Its output times the last layer's weights. -/
theorem stage_feat3 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) :
    val_main_v30 (F := Ideal) x0 x1 x2 x3 x4 x5 x6 x7 x8 x9 = feat3 x0 x1 x2 x3 (x4 : Row 256) x5 (x6 : Row 256) x7 (x8 : Row 256) x9 := by
  unfold val_main_v30
  rw [layer2]
  exact dotGeneral_eq_mm rbc_n_256_128 none _ _ x9

/-- The adjacency matrix times those features. -/
theorem prod3 (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) :
    val_main_v31 (F := Ideal) x0 x1 x2 x3 x4 x5 x6 x7 x8 x9 = mm x1 (feat3 x0 x1 x2 x3 (x4 : Row 256) x5 (x6 : Row 256) x7 (x8 : Row 256) x9) := by
  unfold val_main_v31
  rw [stage_feat3]
  exact dotGeneral_eq_mm rbc_n_n_128 none _ x1 _

/-- The last layer: the reference's result is the whole network. -/
theorem result_eq (x0 : (⟨S10000x256, .f32⟩ : BufTy).Contents (Elt Ideal)) (x1 : (⟨S10000x10000, .f32⟩ : BufTy).Contents (Elt Ideal)) (x2 : (⟨S256x256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) :
    val_main_v39 (F := Ideal) x0 x1 x2 x3 x4 x5 x6 x7 x8 x9 x10
      = net x0 x1 x2 x3 (x4 : Row 256) x5 (x6 : Row 256) x7 (x8 : Row 256) x9 (x10 : Row 128) :=
  host_layer (val_main_v31 (F := Ideal) x0 x1 x2 x3 x4 x5 x6 x7 x8 x9) x1 (feat3 x0 x1 x2 x3 (x4 : Row 256) x5 (x6 : Row 256) x7 (x8 : Row 256) x9) (prod3 x0 x1 x2 x3 x4 x5 x6 x7 x8 x9)
    (val_main_v33 (F := Ideal) x10) (asRow x10) (bias3 x10) (val_main_v35 (F := Ideal)) (val_main_v37 (F := Ideal)) zero3 quarter3

end Cert.ReferenceIdeal.Stages

end
-- ==== Proof.lean ====
/-
  A four-layer graph network computed by four kernel launches equals its plain array-program reference,
  over the extended reals.

  Both programs compute, layer by layer, the activation of (adjacency · (previous output · weights) + bias),
  the first layer multiplying the features by the entrywise product of two weight matrices instead. The
  kernel fuses each layer's activation with the next layer's weight product and works on blocks of rows;
  a row of such a product only depends on the same row of its left factor, so every block it writes is a
  block of the whole-array result, and the blocks cover the array. Rounding to a shorter float format is
  the identity on exact values, both matrix products are the same sums, and no sum is regrouped: the two
  results are one function of the arguments (the specification's network), whatever the arguments are.
  Each program terminates without a fault and leaves its arguments unchanged; the idealized kernel is the
  kernel's own text read at exact values, so nothing is owed for the idealization.
-/
import proofs.«118676_g22600117912055_cont_8to1_816_2_alg».proof.Defs
import proofs.«118676_g22600117912055_cont_8to1_816_2_alg».proof.Proof.Gen.Kernel
import proofs.«118676_g22600117912055_cont_8to1_816_2_alg».proof.Proof.Gen.Kernel.Skeleton
import proofs.«118676_g22600117912055_cont_8to1_816_2_alg».proof.Proof.Gen.Kernel.Launch
import proofs.«118676_g22600117912055_cont_8to1_816_2_alg».proof.Proof.Gen.Kernel.Points
import proofs.«118676_g22600117912055_cont_8to1_816_2_alg».proof.Proof.Gen.Kernel.Frame
import proofs.«118676_g22600117912055_cont_8to1_816_2_alg».proof.Proof.Gen.KernelIdeal
import proofs.«118676_g22600117912055_cont_8to1_816_2_alg».proof.Proof.Gen.KernelIdeal.Skeleton
import proofs.«118676_g22600117912055_cont_8to1_816_2_alg».proof.Proof.Gen.KernelIdeal.Launch
import proofs.«118676_g22600117912055_cont_8to1_816_2_alg».proof.Proof.Gen.KernelIdeal.Points
import proofs.«118676_g22600117912055_cont_8to1_816_2_alg».proof.Proof.Gen.KernelIdeal.Frame
import proofs.«118676_g22600117912055_cont_8to1_816_2_alg».proof.Proof.Gen.ReferenceIdeal
import proofs.«118676_g22600117912055_cont_8to1_816_2_alg».proof.Proof.Gen.Pre_finite_inputs
import proofs.«118676_g22600117912055_cont_8to1_816_2_alg».proof.Proof.Gen.ReferenceIdeal.Run
import proofs.«118676_g22600117912055_cont_8to1_816_2_alg».proof.Proof.Gen.ReferenceIdeal.Read
import proofs.«118676_g22600117912055_cont_8to1_816_2_alg».proof.Proof.KernelRun
import proofs.«118676_g22600117912055_cont_8to1_816_2_alg».proof.Proof.Chain
import proofs.«118676_g22600117912055_cont_8to1_816_2_alg».proof.Proof.RefRead
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of the arguments in their
    result arrays. -/
theorem algebraic : Cert.algebraic_KernelIdeal_ReferenceIdeal := by
  intro m ρ m' ρ' _ hagree
  refine ⟨fun c => Cert.Gcn.net (Cert.KernelIdeal.Chain.X m c) (Cert.KernelIdeal.Chain.A m c) (Cert.KernelIdeal.Chain.G m c)
    (Cert.KernelIdeal.Chain.W0m m c) (Cert.KernelIdeal.Chain.B0 m c) (Cert.KernelIdeal.Chain.W1m m c)
    (Cert.KernelIdeal.Chain.B1 m c) (Cert.KernelIdeal.Chain.W2m m c) (Cert.KernelIdeal.Chain.B2 m c)
    (Cert.KernelIdeal.Chain.W3m m c) (Cert.KernelIdeal.Chain.B3 m c), ?_, ?_⟩
  · exact (θ_run Cert.KernelIdeal.defs _ _).mono
      (fun r h c => ⟨(h c).1.trans (Cert.KernelIdeal.Chain.result m ρ c), (h c).2⟩)
      (Cert.KernelIdeal.Run.run_main (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v39_eq, Cert.ReferenceIdeal.Stages.result_eq,
      a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
